-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S1280000 : Shape := ⟨1, ![1280000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  main_v53

def fn_part2 {F : FTy → Type} [FloatOps F] (main_arg9 : FVec F S64x64 .f32) (main_arg10 : FVec F S64x64 .f32) (main_arg11 : FVec F S64 .f32) (main_arg12 : FVec F S64x64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1280000 32) (main_arg2 : FVec F S1280000 .f32) (main_arg3 : IVec S100000 32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1280000 .f32 := Host.absf main_arg2
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1280000 : Shape := ⟨2, ![2, 1280000]⟩
abbrev S1280000 : Shape := ⟨1, ![1280000]⟩
abbrev S100000 : Shape := ⟨1, ![100000]⟩
abbrev S64x64 : Shape := ⟨2, ![64, 64]⟩
abbrev S64 : Shape := ⟨1, ![64]⟩
abbrev S1x1280000 : Shape := ⟨2, ![1, 1280000]⟩
abbrev S1280000x1 : Shape := ⟨2, ![1280000, 1]⟩
abbrev S_ : Shape := ⟨0, ![]⟩
abbrev S1280000x64 : Shape := ⟨2, ![1280000, 64]⟩
abbrev S1x64 : Shape := ⟨2, ![1, 64]⟩
abbrev S5000x64 : Shape := ⟨2, ![5000, 64]⟩

abbrev nBuf : Space → Nat
  | .hbm => 71
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S1280000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S1x1280000, .i32⟩
  | .hbm, ⟨14, _⟩ => ⟨S1280000, .i32⟩
  | .hbm, ⟨15, _⟩ => ⟨S1x1280000, .i32⟩
  | .hbm, ⟨16, _⟩ => ⟨S1280000, .i32⟩
  | .hbm, ⟨17, _⟩ => ⟨S1280000x1, .f32⟩
  | .hbm, ⟨18, _⟩ => ⟨S_, .i32⟩
  | .hbm, ⟨19, _⟩ => ⟨S1280000, .i32⟩
  | .hbm, ⟨20, _⟩ => ⟨S1280000, .i1⟩
  | .hbm, ⟨21, _⟩ => ⟨S_, .i32⟩
  | .hbm, ⟨22, _⟩ => ⟨S1280000, .i32⟩
  | .hbm, ⟨23, _⟩ => ⟨S1280000, .i32⟩
  | .hbm, ⟨24, _⟩ => ⟨S1280000, .i32⟩
  | .hbm, ⟨25, _⟩ => ⟨S1280000x1, .i32⟩
  | .hbm, ⟨26, _⟩ => ⟨S1280000x64, .f32⟩
  | .hbm, ⟨27, _⟩ => ⟨S1280000x64, .f32⟩
  | .hbm, ⟨28, _⟩ => ⟨S1280000x64, .f32⟩
  | .hbm, ⟨29, _⟩ => ⟨S_, .f32⟩
  | .hbm, ⟨30, _⟩ => ⟨S100000x64, .f32⟩
  | .hbm, ⟨31, _⟩ => ⟨S1280000x1, .i32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S1280000x1, .f32⟩
  | .hbm, ⟨36, _⟩ => ⟨S_, .i32⟩
  | .hbm, ⟨37, _⟩ => ⟨S1280000, .i32⟩
  | .hbm, ⟨38, _⟩ => ⟨S1280000, .i1⟩
  | .hbm, ⟨39, _⟩ => ⟨S_, .i32⟩
  | .hbm, ⟨40, _⟩ => ⟨S1280000, .i32⟩
  | .hbm, ⟨41, _⟩ => ⟨S1280000, .i32⟩
  | .hbm, ⟨42, _⟩ => ⟨S1280000, .i32⟩
  | .hbm, ⟨43, _⟩ => ⟨S1280000x1, .i32⟩
  | .hbm, ⟨44, _⟩ => ⟨S1280000x64, .f32⟩
  | .hbm, ⟨45, _⟩ => ⟨S1280000x64, .f32⟩
  | .hbm, ⟨46, _⟩ => ⟨S1280000x64, .f32⟩
  | .hbm, ⟨47, _⟩ => ⟨S_, .f32⟩
  | .hbm, ⟨48, _⟩ => ⟨S100000x64, .f32⟩
  | .hbm, ⟨49, _⟩ => ⟨S1280000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S1280000x1, .f32⟩
  | .hbm, ⟨54, _⟩ => ⟨S_, .i32⟩
  | .hbm, ⟨55, _⟩ => ⟨S1280000, .i32⟩
  | .hbm, ⟨56, _⟩ => ⟨S1280000, .i1⟩
  | .hbm, ⟨57, _⟩ => ⟨S_, .i32⟩
  | .hbm, ⟨58, _⟩ => ⟨S1280000, .i32⟩
  | .hbm, ⟨59, _⟩ => ⟨S1280000, .i32⟩
  | .hbm, ⟨60, _⟩ => ⟨S1280000, .i32⟩
  | .hbm, ⟨61, _⟩ => ⟨S1280000x1, .i32⟩
  | .hbm, ⟨62, _⟩ => ⟨S1280000x64, .f32⟩
  | .hbm, ⟨63, _⟩ => ⟨S1280000x64, .f32⟩
  | .hbm, ⟨64, _⟩ => ⟨S1280000x64, .f32⟩
  | .hbm, ⟨65, _⟩ => ⟨S_, .f32⟩
  | .hbm, ⟨66, _⟩ => ⟨S100000x64, .f32⟩
  | .hbm, ⟨67, _⟩ => ⟨S1280000x1, .i32⟩
  | .hbm, ⟨68, _⟩ => ⟨S100000x64, .f32⟩
  | .hbm, ⟨69, _⟩ => ⟨S1x64, .f32⟩
  | .hbm, ⟨70, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S1280000 : Shape := ⟨1, ![1280000]⟩
abbrev S100000 : Shape := ⟨1, ![100000]⟩
abbrev S64x64 : Shape := ⟨2, ![64, 64]⟩
abbrev S64 : Shape := ⟨1, ![64]⟩
abbrev S1x1280000 : Shape := ⟨2, ![1, 1280000]⟩
abbrev S1280000x1 : Shape := ⟨2, ![1280000, 1]⟩
abbrev S_ : Shape := ⟨0, ![]⟩
abbrev S1280000x64 : Shape := ⟨2, ![1280000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S1280000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S1x1280000, .i32⟩
  | .hbm, ⟨14, _⟩ => ⟨S1280000, .i32⟩
  | .hbm, ⟨15, _⟩ => ⟨S1x1280000, .i32⟩
  | .hbm, ⟨16, _⟩ => ⟨S1280000, .i32⟩
  | .hbm, ⟨17, _⟩ => ⟨S1280000x1, .f32⟩
  | .hbm, ⟨18, _⟩ => ⟨S_, .i32⟩
  | .hbm, ⟨19, _⟩ => ⟨S1280000, .i32⟩
  | .hbm, ⟨20, _⟩ => ⟨S1280000, .i1⟩
  | .hbm, ⟨21, _⟩ => ⟨S_, .i32⟩
  | .hbm, ⟨22, _⟩ => ⟨S1280000, .i32⟩
  | .hbm, ⟨23, _⟩ => ⟨S1280000, .i32⟩
  | .hbm, ⟨24, _⟩ => ⟨S1280000, .i32⟩
  | .hbm, ⟨25, _⟩ => ⟨S1280000x1, .i32⟩
  | .hbm, ⟨26, _⟩ => ⟨S1280000x64, .f32⟩
  | .hbm, ⟨27, _⟩ => ⟨S1280000x64, .f32⟩
  | .hbm, ⟨28, _⟩ => ⟨S1280000x64, .f32⟩
  | .hbm, ⟨29, _⟩ => ⟨S_, .f32⟩
  | .hbm, ⟨30, _⟩ => ⟨S100000x64, .f32⟩
  | .hbm, ⟨31, _⟩ => ⟨S1280000x1, .i32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S1280000x1, .f32⟩
  | .hbm, ⟨43, _⟩ => ⟨S_, .i32⟩
  | .hbm, ⟨44, _⟩ => ⟨S1280000, .i32⟩
  | .hbm, ⟨45, _⟩ => ⟨S1280000, .i1⟩
  | .hbm, ⟨46, _⟩ => ⟨S_, .i32⟩
  | .hbm, ⟨47, _⟩ => ⟨S1280000, .i32⟩
  | .hbm, ⟨48, _⟩ => ⟨S1280000, .i32⟩
  | .hbm, ⟨49, _⟩ => ⟨S1280000, .i32⟩
  | .hbm, ⟨50, _⟩ => ⟨S1280000x1, .i32⟩
  | .hbm, ⟨51, _⟩ => ⟨S1280000x64, .f32⟩
  | .hbm, ⟨52, _⟩ => ⟨S1280000x64, .f32⟩
  | .hbm, ⟨53, _⟩ => ⟨S1280000x64, .f32⟩
  | .hbm, ⟨54, _⟩ => ⟨S_, .f32⟩
  | .hbm, ⟨55, _⟩ => ⟨S100000x64, .f32⟩
  | .hbm, ⟨56, _⟩ => ⟨S1280000x1, .i32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S1280000x1, .f32⟩
  | .hbm, ⟨68, _⟩ => ⟨S_, .i32⟩
  | .hbm, ⟨69, _⟩ => ⟨S1280000, .i32⟩
  | .hbm, ⟨70, _⟩ => ⟨S1280000, .i1⟩
  | .hbm, ⟨71, _⟩ => ⟨S_, .i32⟩
  | .hbm, ⟨72, _⟩ => ⟨S1280000, .i32⟩
  | .hbm, ⟨73, _⟩ => ⟨S1280000, .i32⟩
  | .hbm, ⟨74, _⟩ => ⟨S1280000, .i32⟩
  | .hbm, ⟨75, _⟩ => ⟨S1280000x1, .i32⟩
  | .hbm, ⟨76, _⟩ => ⟨S1280000x64, .f32⟩
  | .hbm, ⟨77, _⟩ => ⟨S1280000x64, .f32⟩
  | .hbm, ⟨78, _⟩ => ⟨S1280000x64, .f32⟩
  | .hbm, ⟨79, _⟩ => ⟨S_, .f32⟩
  | .hbm, ⟨80, _⟩ => ⟨S100000x64, .f32⟩
  | .hbm, ⟨81, _⟩ => ⟨S1280000x1, .i32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_c_4 : Ref sig .tc := ⟨.hbm, 68, rfl⟩
abbrev main_v45 : Ref sig .tc := ⟨.hbm, 69, rfl⟩
abbrev main_v46 : Ref sig .tc := ⟨.hbm, 70, rfl⟩
abbrev main_c_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with every buffer named at the end.

  The program is six segments: a stretch of host operations, then a launch, three times over. Its run from any
  launch memory terminates without a fault, and at the end every buffer that outlives the launches holds the
  contents the segment-by-segment fold assigns it (`W6`): host operations applied in order, each launch's
  result array at what its write-backs leave. In particular the result buffer holds the fold's value for it, and
  the thirteen argument buffers hold what they held at launch.
-/
import proofs.«136524_j78709570666587_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the launches at
    the fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run read at the result and at the arguments: the result buffer at the fold's value, the arguments as launched. -/
theorem run_result : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v48 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩)
    (run_all m ρ)

end Cert.KernelIdeal.Hand
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«136524_j78709570666587_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.ConvSpec.lean ====
/-
  One graph-convolution layer, entry by entry, at the ideal instance.

  For node features `H` (`n × 64`), their edge-weighted neighbour sums `A` (`n × 64`), two `64 × 64` weight
  matrices and a bias row, the layer's entry `(p, q)` before the rectifier is
      (Σ_k A[p, k] · W_rel[k, q]) + bias[q] + (Σ_k H[p, k] · W_root[k, q]),
  the two sums over `k : Fin 64`, added in this order. The rectified layer takes the larger of that and zero.
  Both the host's spelling (two products, the bias laid along every row, two additions) and a kernel block's
  (two accumulating products from zero, the bias row broadcast down the block) read to this formula.
-/
import proofs.«136524_j78709570666587_1_alg».proof.Proof.LibDotRead

noncomputable section

namespace Cert.GraphConv

open Idealize.ShloMosaic Idealize.ShloMosaic.ValueIdx Idealize.ShloMosaic.MatmulRead
open scoped BigOperators

/-- Entry `(p, q)` of one layer before the rectifier; `β q` is the bias of column `q`. -/
def conv {n : ℕ} (A H : FVec Ideal (⟨2, ![n, 64]⟩ : Shape) .f32) (Wr Wo : FVec Ideal (⟨2, ![64, 64]⟩ : Shape) .f32)
    (β : Fin 64 → Ideal .f32) (p : Fin n) (q : Fin 64) : Ideal .f32 :=
  (∑ k : Fin 64, A (ix2 p k) * Wr (ix2 k q)) + β q + ∑ k : Fin 64, H (ix2 p k) * Wo (ix2 k q)

/-- The host's layer — product, bias along every row, product, added left to right — at entry `(p, q)`. -/
theorem hostLayer_apply {n : ℕ} {D : DotDims (⟨2, ![n, 64]⟩ : Shape) (⟨2, ![64, 64]⟩ : Shape) (⟨2, ![n, 64]⟩ : Shape)}
    (hD : RowsByCols D) (hr : D.contr.rank = 1) (hs : D.contr.size ⟨0, by omega⟩ = 64)
    (A H : FVec Ideal (⟨2, ![n, 64]⟩ : Shape) .f32) (Wr Wo : FVec Ideal (⟨2, ![64, 64]⟩ : Shape) .f32)
    (b : FVec Ideal (⟨1, ![64]⟩ : Shape) .f32)
    (h1 : (⟨1, ![64]⟩ : Shape).BroadcastsInDim ⟨2, ![1, 64]⟩ ![1])
    (h2 : (⟨2, ![1, 64]⟩ : Shape).BroadcastsInDim ⟨2, ![n, 64]⟩ ![0, 1]) (p : Fin n) (q : Fin 64) :
    addf (addf (Host.dotGeneral D none A Wr)
        (broadcastInDim (⟨2, ![n, 64]⟩ : Shape) ![0, 1] h2 (broadcastInDim (⟨2, ![1, 64]⟩ : Shape) ![1] h1 b)))
      (Host.dotGeneral D none H Wo) (ix2 p q) = conv A H Wr Wo (fun q => b (ix1 q)) p q := by
  have e1 : broadcastInDim (⟨2, ![1, 64]⟩ : Shape) ![1] h1 b (ix2 (0 : Fin 1) q) = b (ix1 q) :=
    broadcastInDim_apply ![1] h1 b (ix2 (0 : Fin 1) q) (ix1 q) (fun a => by
      match a with
      | ⟨0, _⟩ => rfl)
  show (Host.dotGeneral D none A Wr (ix2 p q)
      + broadcastInDim (⟨2, ![n, 64]⟩ : Shape) ![0, 1] h2 (broadcastInDim (⟨2, ![1, 64]⟩ : Shape) ![1] h1 b) (ix2 p q))
      + Host.dotGeneral D none H Wo (ix2 p q) = _
  rw [hostDot_ix2 hD hr hs, hostDot_ix2 hD hr hs, broadcastInDim_oneRow_apply h2, e1]
  rfl

/-- The host's rectifier, the larger of a value and the zero constant laid over the array, at an index. -/
theorem hostRelu_apply {s : Shape} (y : FVec Ideal s .f32) (h0 : (⟨0, ![]⟩ : Shape).BroadcastsInDim s ![])
    (j : s.Idx) :
    maximumf y (broadcastInDim s ![] h0 (constant (F := Ideal) (⟨0, ![]⟩ : Shape) .f32 0x00000000#32)) j
      = max (y j) (Ideal.ofBits .f32 0x00000000#32) := by
  show max (y j) (broadcastInDim s ![] h0 (constant (F := Ideal) (⟨0, ![]⟩ : Shape) .f32 0x00000000#32) j) = _
  rw [broadcastInDim_apply ![] h0 _ j ix0 (fun a => a.elim0)]
  rfl

end Cert.GraphConv
-- ==== Proof.KernelBlock.lean ====
/-
  What one grid point of each of the three kernels stores, read at an entry of its 5000 × 64 block.

  Each body loads the block of neighbour sums `x0`, the block of node features `x1`, the two weight matrices
  `x2`, `x4` and the bias row `x3` (a 1 × 64 array), narrows the four matrices to bf16 (the identity at the
  ideal instance), multiplies each block by its weights into a zero accumulator, lays the bias row down the block,
  and adds left to right; the first two kernels then take the larger of that and zero. So entry `(p, q)` of the
  stored block is the layer's entry formula over the block's rows.
-/
import proofs.«136524_j78709570666587_1_alg».proof.Proof.Gen.KernelIdeal.Skeleton
import proofs.«136524_j78709570666587_1_alg».proof.Proof.ConvSpec
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open Idealize.ShloMosaic.MatmulRead Cert.GraphConv
open scoped BigOperators

/-- The kernels' contraction record is of the rows-by-columns form. -/
theorem dot_rbc : RowsByCols dot_S5000x64_S64x64_S5000x64_1_0_0_1_n_n := ⟨rfl, rfl, rfl, rfl, rfl, rfl⟩

/-- The first kernel's stored block at `(p, q)`: the rectified layer entry over the block's rows. -/
theorem pay0_apply (x0 x1 : FVec Ideal S5000x64 .f32) (x2 x4 : FVec Ideal S64x64 .f32) (x3 : FVec Ideal S1x64 .f32)
    (p : Fin 5000) (q : Fin 64) :
    k0_pay1 (F := Ideal) x0 x1 x2 x4 x3 (ix2 p q)
      = max (conv x0 x1 x2 x4 (fun q => x3 (ix2 (0 : Fin 1) q)) p q) (Ideal.ofBits .f32 0x00000000#32) := by
  unfold k0_pay1 conv
  simp only [maximumf_apply, addf_apply, broadcast_apply]
  refine congrArg₂ max (congrArg₂ (· + ·) (congrArg₂ (· + ·) ?_ ?_) ?_) rfl
  · refine (matmul_zero_ix2 dot_rbc rfl rfl none _ _ p q).trans (Finset.sum_congr rfl fun k _ => ?_)
    show shapeCast S5000x64 x0 _ (ix2 p k) * x2 (ix2 k q) = x0 (ix2 p k) * x2 (ix2 k q)
    rw [shapeCast_self]
  · refine (broadcastTo_1b_ab_apply _ _ p q).trans ?_
    rw [shapeCast_self]
  · exact (matmul_zero_ix2 dot_rbc rfl rfl none _ _ p q).trans (Finset.sum_congr rfl fun k _ => rfl)

/-- The second kernel's stored block at `(p, q)`: the rectified layer entry over the block's rows. -/
theorem pay1_apply (x0 x1 : FVec Ideal S5000x64 .f32) (x2 x4 : FVec Ideal S64x64 .f32) (x3 : FVec Ideal S1x64 .f32)
    (p : Fin 5000) (q : Fin 64) :
    k1_pay1 (F := Ideal) x0 x1 x2 x4 x3 (ix2 p q)
      = max (conv x0 x1 x2 x4 (fun q => x3 (ix2 (0 : Fin 1) q)) p q) (Ideal.ofBits .f32 0x00000000#32) := by
  unfold k1_pay1 conv
  simp only [maximumf_apply, addf_apply, broadcast_apply]
  refine congrArg₂ max (congrArg₂ (· + ·) (congrArg₂ (· + ·) ?_ ?_) ?_) rfl
  · refine (matmul_zero_ix2 dot_rbc rfl rfl none _ _ p q).trans (Finset.sum_congr rfl fun k _ => ?_)
    show shapeCast S5000x64 x0 _ (ix2 p k) * x2 (ix2 k q) = x0 (ix2 p k) * x2 (ix2 k q)
    rw [shapeCast_self]
  · refine (broadcastTo_1b_ab_apply _ _ p q).trans ?_
    rw [shapeCast_self]
  · refine (matmul_zero_ix2 dot_rbc rfl rfl none _ _ p q).trans (Finset.sum_congr rfl fun k _ => ?_)
    show shapeCast S5000x64 x1 _ (ix2 p k) * x4 (ix2 k q) = x1 (ix2 p k) * x4 (ix2 k q)
    rw [shapeCast_self]

/-- The third kernel's stored block at `(p, q)`: the layer entry over the block's rows, with no rectifier. -/
theorem pay2_apply (x0 x1 : FVec Ideal S5000x64 .f32) (x2 x4 : FVec Ideal S64x64 .f32) (x3 : FVec Ideal S1x64 .f32)
    (p : Fin 5000) (q : Fin 64) :
    k2_pay1 (F := Ideal) x0 x1 x2 x4 x3 (ix2 p q) = conv x0 x1 x2 x4 (fun q => x3 (ix2 (0 : Fin 1) q)) p q := by
  unfold k2_pay1 conv
  simp only [addf_apply]
  refine congrArg₂ (· + ·) (congrArg₂ (· + ·) ?_ ?_) ?_
  · refine (matmul_zero_ix2 dot_rbc rfl rfl none _ _ p q).trans (Finset.sum_congr rfl fun k _ => ?_)
    show shapeCast S5000x64 x0 _ (ix2 p k) * x2 (ix2 k q) = x0 (ix2 p k) * x2 (ix2 k q)
    rw [shapeCast_self]
  · refine (broadcastTo_1b_ab_apply _ _ p q).trans ?_
    rw [shapeCast_self]
  · refine (matmul_zero_ix2 dot_rbc rfl rfl none _ _ p q).trans (Finset.sum_congr rfl fun k _ => ?_)
    show shapeCast S5000x64 x1 _ (ix2 p k) * x4 (ix2 k q) = x1 (ix2 p k) * x4 (ix2 k q)
    rw [shapeCast_self]

end Cert.KernelIdeal.Block
-- ==== Proof.LayerArr.lean ====
/-
  The layer as a whole array, and the host's spelling of it.

  `layerArr` is the array whose entry `(p, q)` is the layer's entry formula; `layerReluArr` the larger of that
  and zero. An entry depends only on row `p` of the two `n × 64` operands, column `q` of the two weight
  matrices and the bias of column `q` (`conv_rows`): this is what lets a block of rows computed from a block of
  the operands be a block of the whole array. The host's two products, bias laid along every row and two
  additions are `layerArr`; its rectifier on top is `layerReluArr`.
-/
import proofs.«136524_j78709570666587_1_alg».proof.Proof.ConvSpec

noncomputable section

namespace Cert.GraphConv

open Idealize.ShloMosaic Idealize.ShloMosaic.ValueIdx Idealize.ShloMosaic.MatmulRead
open scoped BigOperators

variable {n : ℕ}

/-- The layer before the rectifier, as an array of `n` rows. -/
def layerArr (A H : FVec Ideal (⟨2, ![n, 64]⟩ : Shape) .f32) (Wr Wo : FVec Ideal (⟨2, ![64, 64]⟩ : Shape) .f32)
    (β : Fin 64 → Ideal .f32) : FVec Ideal (⟨2, ![n, 64]⟩ : Shape) .f32 :=
  fun j => conv A H Wr Wo β (j 0) (j 1)

/-- The rectified layer, as an array of `n` rows. -/
def layerReluArr (A H : FVec Ideal (⟨2, ![n, 64]⟩ : Shape) .f32) (Wr Wo : FVec Ideal (⟨2, ![64, 64]⟩ : Shape) .f32)
    (β : Fin 64 → Ideal .f32) : FVec Ideal (⟨2, ![n, 64]⟩ : Shape) .f32 :=
  fun j => max (conv A H Wr Wo β (j 0) (j 1)) (Ideal.ofBits .f32 0x00000000#32)

/-- An entry of the layer depends on one row of each operand, one column of each weight matrix, one bias. -/
theorem conv_rows {n' : ℕ} (A H : FVec Ideal (⟨2, ![n, 64]⟩ : Shape) .f32)
    (A' H' : FVec Ideal (⟨2, ![n', 64]⟩ : Shape) .f32) (Wr Wo Wr' Wo' : FVec Ideal (⟨2, ![64, 64]⟩ : Shape) .f32)
    (β β' : Fin 64 → Ideal .f32) (p : Fin n) (p' : Fin n') (q : Fin 64)
    (hA : ∀ k : Fin 64, A (ix2 p k) = A' (ix2 p' k)) (hH : ∀ k : Fin 64, H (ix2 p k) = H' (ix2 p' k))
    (hWr : ∀ k : Fin 64, Wr (ix2 k q) = Wr' (ix2 k q)) (hWo : ∀ k : Fin 64, Wo (ix2 k q) = Wo' (ix2 k q))
    (hβ : β q = β' q) : conv A H Wr Wo β p q = conv A' H' Wr' Wo' β' p' q := by
  unfold conv
  exact congrArg₂ (· + ·) (congrArg₂ (· + ·) (Finset.sum_congr rfl fun k _ => by rw [hA k, hWr k]) hβ)
    (Finset.sum_congr rfl fun k _ => by rw [hH k, hWo k])

/-- The host's layer is `layerArr`. -/
theorem hostLayer_eq {D : DotDims (⟨2, ![n, 64]⟩ : Shape) (⟨2, ![64, 64]⟩ : Shape) (⟨2, ![n, 64]⟩ : Shape)}
    (hD : RowsByCols D) (hr : D.contr.rank = 1) (hs : D.contr.size ⟨0, by omega⟩ = 64)
    (A H : FVec Ideal (⟨2, ![n, 64]⟩ : Shape) .f32) (Wr Wo : FVec Ideal (⟨2, ![64, 64]⟩ : Shape) .f32)
    (b : FVec Ideal (⟨1, ![64]⟩ : Shape) .f32)
    (h1 : (⟨1, ![64]⟩ : Shape).BroadcastsInDim ⟨2, ![1, 64]⟩ ![1])
    (h2 : (⟨2, ![1, 64]⟩ : Shape).BroadcastsInDim ⟨2, ![n, 64]⟩ ![0, 1]) :
    addf (addf (Host.dotGeneral D none A Wr)
        (broadcastInDim (⟨2, ![n, 64]⟩ : Shape) ![0, 1] h2 (broadcastInDim (⟨2, ![1, 64]⟩ : Shape) ![1] h1 b)))
      (Host.dotGeneral D none H Wo) = layerArr A H Wr Wo (fun q => b (ix1 q)) := by
  funext j
  obtain ⟨p, q, rfl⟩ : ∃ (p : Fin n) (q : Fin 64), j = ix2 p q := ⟨j 0, j 1, eq_ix2 j⟩
  exact hostLayer_apply hD hr hs A H Wr Wo b h1 h2 p q

/-- The host's rectifier over the layer is `layerReluArr`. -/
theorem hostRelu_layer_eq (A H : FVec Ideal (⟨2, ![n, 64]⟩ : Shape) .f32)
    (Wr Wo : FVec Ideal (⟨2, ![64, 64]⟩ : Shape) .f32) (β : Fin 64 → Ideal .f32)
    (h0 : (⟨0, ![]⟩ : Shape).BroadcastsInDim (⟨2, ![n, 64]⟩ : Shape) ![]) :
    maximumf (layerArr A H Wr Wo β)
        (broadcastInDim (⟨2, ![n, 64]⟩ : Shape) ![] h0 (constant (F := Ideal) (⟨0, ![]⟩ : Shape) .f32 0x00000000#32))
      = layerReluArr A H Wr Wo β :=
  funext fun j => hostRelu_apply _ h0 j

end Cert.GraphConv
-- ==== Proof.Region0.lean ====
/-
  Region 0: the array the kernel's first launch leaves, as ONE function of the arrays it finds.

  The launch walks 20 grid points; point `t` reads rows `5000 t … 5000 t + 4999` of the two node arrays (its
  blocks of the neighbour sums and of the features), the whole of both weight matrices and the bias row, and
  writes back rows `5000 t … 5000 t + 4999` of the result. An entry of the layer depends only on its own row of
  the node arrays, so what point `t` writes back is block `t` of the rectified layer of the WHOLE arrays; the
  twenty blocks tile the 100000 rows, so the result array ends as that layer.
  Everything is stated at the contents `V` the region is entered with, a parameter.
-/
import proofs.«136524_j78709570666587_1_alg».proof.Proof.Gen.KernelIdeal.Frame
import proofs.«136524_j78709570666587_1_alg».proof.Proof.KernelBlock
import proofs.«136524_j78709570666587_1_alg».proof.Proof.LayerArr
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx Cert.GraphConv Cert.KernelIdeal.Block

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the three node-array windows at block row `t`, the weights and the
    bias at their one block. Decided over the grid's twenty points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The rectified layer of the arrays the region finds: neighbour sums, features, the two weight matrices, the bias row. -/
abbrev G (c : Dev nD) : FVec Ideal S100000x64 .f32 :=
  layerReluArr (V c main_v16) (V c main_arg0) (V c main_arg4) (V c main_arg6)
    (fun q => (V c main_v17 : FVec Ideal S1x64 .f32) (ix2 (0 : Fin 1) q))

/-- Row `p` of point `t`'s block of the neighbour sums is row `5000 t + p` of the array. -/
theorem iblk_0 (c : Dev nD) (t : Fin cfg0.N) (p : Fin 5000) (k : Fin 64) (h : 5000 * t.val + p.val < 100000) :
    (iblk0 V c 0 t : FVec Ideal S5000x64 .f32) (ix2 p k)
      = (V c main_v16 : FVec Ideal S100000x64 .f32) (ix2 (⟨5000 * t.val + p.val, h⟩ : Fin 100000) k) := by
  obtain ⟨e00, e01, -⟩ := idx_facts t
  unfold iblk0
  rw [View.read_apply]
  refine congrArg (V c main_v16) ?_
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

/-- Row `p` of point `t`'s block of the features is row `5000 t + p` of the array. -/
theorem iblk_1 (c : Dev nD) (t : Fin cfg0.N) (p : Fin 5000) (k : Fin 64) (h : 5000 * t.val + p.val < 100000) :
    (iblk0 V c 1 t : FVec Ideal S5000x64 .f32) (ix2 p k)
      = (V c main_arg0 : FVec Ideal S100000x64 .f32) (ix2 (⟨5000 * t.val + p.val, h⟩ : Fin 100000) k) := by
  obtain ⟨-, -, e10, e11, -⟩ := idx_facts t
  unfold iblk0
  rw [View.read_apply]
  refine congrArg (V c main_arg0) ?_
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

/-- The block of the first weight matrix is the matrix. -/
theorem iblk_2 (c : Dev nD) (t : Fin cfg0.N) (k q : Fin 64) :
    (iblk0 V c 2 t : FVec Ideal S64x64 .f32) (ix2 k q) = (V c main_arg4 : FVec Ideal S64x64 .f32) (ix2 k q) := by
  obtain ⟨-, -, -, -, e20, e21, -⟩ := idx_facts t
  unfold iblk0
  rw [View.read_apply]
  refine congrArg (V c main_arg4) ?_
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The block of the bias row is the row. -/
theorem iblk_3 (c : Dev nD) (t : Fin cfg0.N) (q : Fin 64) :
    (iblk0 V c 3 t : FVec Ideal S1x64 .f32) (ix2 (0 : Fin 1) q) = (V c main_v17 : FVec Ideal S1x64 .f32) (ix2 (0 : Fin 1) q) := by
  obtain ⟨-, -, -, -, -, -, e30, e31, -⟩ := idx_facts t
  unfold iblk0
  rw [View.read_apply]
  refine congrArg (V c main_v17) ?_
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-- The block of the second weight matrix is the matrix. -/
theorem iblk_4 (c : Dev nD) (t : Fin cfg0.N) (k q : Fin 64) :
    (iblk0 V c 4 t : FVec Ideal S64x64 .f32) (ix2 k q) = (V c main_arg6 : FVec Ideal S64x64 .f32) (ix2 k q) := by
  obtain ⟨-, -, -, -, -, -, -, -, e40, e41, -⟩ := idx_facts t
  unfold iblk0
  rw [View.read_apply]
  refine congrArg (V c main_arg6) ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e50, e51⟩ := idx_facts t
  have ht : t.val < 20 := Nat.lt_of_lt_of_eq t.isLt N_0
  funext j
  obtain ⟨p, q, rfl⟩ : ∃ (p : Fin 5000) (q : Fin 64), j = ix2 p q := ⟨j 0, j 1, eq_ix2 j⟩
  have hrow : 5000 * t.val + p.val < 100000 := by have := p.isLt; omega
  have hemb : ((cfg0.win 5).blk t).view.emb (ix2 p q) = ix2 (⟨5000 * t.val + p.val, hrow⟩ : Fin 100000) q := by
    funext a; apply Fin.ext
    match a with
    | ⟨0, _⟩ => show win0_5.index t (0 : Fin 2) * 5000 + 1 * p.val = 5000 * t.val + p.val; omega
    | ⟨1, _⟩ => show win0_5.index t (1 : Fin 2) * 64 + 1 * q.val = q.val; omega
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  rw [hemb]
  refine (pay0_apply (iblk0 V c 0 t) (iblk0 V c 1 t) (iblk0 V c 2 t) (iblk0 V c 4 t) (iblk0 V c 3 t) p q).trans ?_
  refine congrArg (fun v => max v (Ideal.ofBits .f32 0x00000000#32)) ?_
  exact conv_rows _ _ _ _ _ _ _ _ _ _ p (⟨5000 * t.val + p.val, hrow⟩ : Fin 100000) q
    (fun k => iblk_0 V c t p k hrow) (fun k => iblk_1 V c t p k hrow) (fun k => iblk_2 V c t k q)
    (fun k => iblk_4 V c t k q) (iblk_3 V c t q)

/-- An index of the result array is in point `t`'s block iff each coordinate is in the block's range. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v18).slice (win0_5.rect t)).set ↔ _
  rw [View.set_slice_whole, Rect.mem_set_unit]
  exact Iff.rfl

/-- The twenty blocks tile the array: row `r` is in the block of point `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE ARRAY the launch leaves: the rectified layer of the arrays it found. -/
theorem final (c : Dev nD) : (dat0 V c).arrAt 5 cfg0.N = G V c :=
  (dat0 V c).arrAt_eq_of_cover 5 (G V c) (fun t _ => flushed_eq V c t) cover

end Cert.KernelIdeal.Region0
-- ==== Proof.Region1.lean ====
/-
  Region 1: the array the kernel's second launch leaves, as ONE function of the arrays it finds.

  The launch walks 20 grid points; point `t` reads rows `5000 t … 5000 t + 4999` of the two node arrays (its
  blocks of the neighbour sums and of the features), the whole of both weight matrices and the bias row, and
  writes back rows `5000 t … 5000 t + 4999` of the result. An entry of the layer depends only on its own row of
  the node arrays, so what point `t` writes back is block `t` of the rectified layer of the WHOLE arrays; the
  twenty blocks tile the 100000 rows, so the result array ends as that layer.
  Everything is stated at the contents `V` the region is entered with, a parameter.
-/
import proofs.«136524_j78709570666587_1_alg».proof.Proof.Gen.KernelIdeal.Frame
import proofs.«136524_j78709570666587_1_alg».proof.Proof.KernelBlock
import proofs.«136524_j78709570666587_1_alg».proof.Proof.LayerArr
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.GraphConv Cert.KernelIdeal.Block

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the three node-array windows at block row `t`, the weights and the
    bias at their one block. Decided over the grid's twenty points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the result is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The rectified layer of the arrays the region finds: neighbour sums, features, the two weight matrices, the bias row. -/
abbrev G (c : Dev nD) : FVec Ideal S100000x64 .f32 :=
  layerReluArr (V c main_v31) (V c main_v18) (V c main_arg7) (V c main_arg9)
    (fun q => (V c main_v32 : FVec Ideal S1x64 .f32) (ix2 (0 : Fin 1) q))

/-- Row `p` of point `t`'s block of the neighbour sums is row `5000 t + p` of the array. -/
theorem iblk_0 (c : Dev nD) (t : Fin cfg1.N) (p : Fin 5000) (k : Fin 64) (h : 5000 * t.val + p.val < 100000) :
    (iblk1 V c 0 t : FVec Ideal S5000x64 .f32) (ix2 p k)
      = (V c main_v31 : FVec Ideal S100000x64 .f32) (ix2 (⟨5000 * t.val + p.val, h⟩ : Fin 100000) k) := by
  obtain ⟨e00, e01, -⟩ := idx_facts t
  unfold iblk1
  rw [View.read_apply]
  refine congrArg (V c main_v31) ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- Row `p` of point `t`'s block of the features is row `5000 t + p` of the array. -/
theorem iblk_1 (c : Dev nD) (t : Fin cfg1.N) (p : Fin 5000) (k : Fin 64) (h : 5000 * t.val + p.val < 100000) :
    (iblk1 V c 1 t : FVec Ideal S5000x64 .f32) (ix2 p k)
      = (V c main_v18 : FVec Ideal S100000x64 .f32) (ix2 (⟨5000 * t.val + p.val, h⟩ : Fin 100000) k) := by
  obtain ⟨-, -, e10, e11, -⟩ := idx_facts t
  unfold iblk1
  rw [View.read_apply]
  refine congrArg (V c main_v18) ?_
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- The block of the first weight matrix is the matrix. -/
theorem iblk_2 (c : Dev nD) (t : Fin cfg1.N) (k q : Fin 64) :
    (iblk1 V c 2 t : FVec Ideal S64x64 .f32) (ix2 k q) = (V c main_arg7 : FVec Ideal S64x64 .f32) (ix2 k q) := by
  obtain ⟨-, -, -, -, e20, e21, -⟩ := idx_facts t
  unfold iblk1
  rw [View.read_apply]
  refine congrArg (V c main_arg7) ?_
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- The block of the bias row is the row. -/
theorem iblk_3 (c : Dev nD) (t : Fin cfg1.N) (q : Fin 64) :
    (iblk1 V c 3 t : FVec Ideal S1x64 .f32) (ix2 (0 : Fin 1) q) = (V c main_v32 : FVec Ideal S1x64 .f32) (ix2 (0 : Fin 1) q) := by
  obtain ⟨-, -, -, -, -, -, e30, e31, -⟩ := idx_facts t
  unfold iblk1
  rw [View.read_apply]
  refine congrArg (V c main_v32) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The block of the second weight matrix is the matrix. -/
theorem iblk_4 (c : Dev nD) (t : Fin cfg1.N) (k q : Fin 64) :
    (iblk1 V c 4 t : FVec Ideal S64x64 .f32) (ix2 k q) = (V c main_arg9 : FVec Ideal S64x64 .f32) (ix2 k q) := by
  obtain ⟨-, -, -, -, -, -, -, -, e40, e41, -⟩ := idx_facts t
  unfold iblk1
  rw [View.read_apply]
  refine congrArg (V c main_arg9) ?_
  funext a; apply Fin.ext
  match a with
  | ⟨0, _⟩ => show win1_4.index t (0 : Fin 2) * 64 + 1 * k.val = k.val; omega
  | ⟨1, _⟩ => show win1_4.index t (1 : Fin 2) * 64 + 1 * q.val = q.val; omega

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e50, e51⟩ := idx_facts t
  have ht : t.val < 20 := Nat.lt_of_lt_of_eq t.isLt N_1
  funext j
  obtain ⟨p, q, rfl⟩ : ∃ (p : Fin 5000) (q : Fin 64), j = ix2 p q := ⟨j 0, j 1, eq_ix2 j⟩
  have hrow : 5000 * t.val + p.val < 100000 := by have := p.isLt; omega
  have hemb : ((cfg1.win 5).blk t).view.emb (ix2 p q) = ix2 (⟨5000 * t.val + p.val, hrow⟩ : Fin 100000) q := by
    funext a; apply Fin.ext
    match a with
    | ⟨0, _⟩ => show win1_5.index t (0 : Fin 2) * 5000 + 1 * p.val = 5000 * t.val + p.val; omega
    | ⟨1, _⟩ => show win1_5.index t (1 : Fin 2) * 64 + 1 * q.val = q.val; omega
  show k1_pay1 (F := Ideal) (iblk1 V c 0 t) (iblk1 V c 1 t) (iblk1 V c 2 t) (iblk1 V c 4 t) (iblk1 V c 3 t) (ix2 p q)
    = G V c (((cfg1.win 5).blk t).view.emb (ix2 p q))
  rw [hemb]
  refine (pay1_apply (iblk1 V c 0 t) (iblk1 V c 1 t) (iblk1 V c 2 t) (iblk1 V c 4 t) (iblk1 V c 3 t) p q).trans ?_
  refine congrArg (fun v => max v (Ideal.ofBits .f32 0x00000000#32)) ?_
  exact conv_rows _ _ _ _ _ _ _ _ _ _ p (⟨5000 * t.val + p.val, hrow⟩ : Fin 100000) q
    (fun k => iblk_0 V c t p k hrow) (fun k => iblk_1 V c t p k hrow) (fun k => iblk_2 V c t k q)
    (fun k => iblk_4 V c t k q) (iblk_3 V c t q)

/-- An index of the result array is in point `t`'s block iff each coordinate is in the block's range. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v33).slice (win1_5.rect t)).set ↔ _
  rw [View.set_slice_whole, Rect.mem_set_unit]
  exact Iff.rfl

/-- The twenty blocks tile the array: row `r` is in the block of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY the launch leaves: the rectified layer of the arrays it found. -/
theorem final (c : Dev nD) : (dat1 V c).arrAt 5 cfg1.N = G V c :=
  (dat1 V c).arrAt_eq_of_cover 5 (G V c) (fun t _ => flushed_eq V c t) cover

end Cert.KernelIdeal.Region1
-- ==== Proof.Region2.lean ====
/-
  Region 2: the array the kernel's third launch leaves, as ONE function of the arrays it finds.

  The launch walks 20 grid points; point `t` reads rows `5000 t … 5000 t + 4999` of the two node arrays (its
  blocks of the neighbour sums and of the features), the whole of both weight matrices and the bias row, and
  writes back rows `5000 t … 5000 t + 4999` of the result. An entry of the layer depends only on its own row of
  the node arrays, so what point `t` writes back is block `t` of the layer of the WHOLE arrays; the
  twenty blocks tile the 100000 rows, so the result array ends as that layer.
  Everything is stated at the contents `V` the region is entered with, a parameter.
-/
import proofs.«136524_j78709570666587_1_alg».proof.Proof.Gen.KernelIdeal.Frame
import proofs.«136524_j78709570666587_1_alg».proof.Proof.KernelBlock
import proofs.«136524_j78709570666587_1_alg».proof.Proof.LayerArr
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx Cert.GraphConv Cert.KernelIdeal.Block

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the three node-array windows at block row `t`, the weights and the
    bias at their one block. Decided over the grid's twenty points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the result is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- The layer of the arrays the region finds: neighbour sums, features, the two weight matrices, the bias row. -/
abbrev G (c : Dev nD) : FVec Ideal S100000x64 .f32 :=
  layerArr (V c main_v46) (V c main_v33) (V c main_arg10) (V c main_arg12)
    (fun q => (V c main_v47 : FVec Ideal S1x64 .f32) (ix2 (0 : Fin 1) q))

/-- Row `p` of point `t`'s block of the neighbour sums is row `5000 t + p` of the array. -/
theorem iblk_0 (c : Dev nD) (t : Fin cfg2.N) (p : Fin 5000) (k : Fin 64) (h : 5000 * t.val + p.val < 100000) :
    (iblk2 V c 0 t : FVec Ideal S5000x64 .f32) (ix2 p k)
      = (V c main_v46 : FVec Ideal S100000x64 .f32) (ix2 (⟨5000 * t.val + p.val, h⟩ : Fin 100000) k) := by
  obtain ⟨e00, e01, -⟩ := idx_facts t
  unfold iblk2
  rw [View.read_apply]
  refine congrArg (V c main_v46) ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- Row `p` of point `t`'s block of the features is row `5000 t + p` of the array. -/
theorem iblk_1 (c : Dev nD) (t : Fin cfg2.N) (p : Fin 5000) (k : Fin 64) (h : 5000 * t.val + p.val < 100000) :
    (iblk2 V c 1 t : FVec Ideal S5000x64 .f32) (ix2 p k)
      = (V c main_v33 : FVec Ideal S100000x64 .f32) (ix2 (⟨5000 * t.val + p.val, h⟩ : Fin 100000) k) := by
  obtain ⟨-, -, e10, e11, -⟩ := idx_facts t
  unfold iblk2
  rw [View.read_apply]
  refine congrArg (V c main_v33) ?_
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- The block of the first weight matrix is the matrix. -/
theorem iblk_2 (c : Dev nD) (t : Fin cfg2.N) (k q : Fin 64) :
    (iblk2 V c 2 t : FVec Ideal S64x64 .f32) (ix2 k q) = (V c main_arg10 : FVec Ideal S64x64 .f32) (ix2 k q) := by
  obtain ⟨-, -, -, -, e20, e21, -⟩ := idx_facts t
  unfold iblk2
  rw [View.read_apply]
  refine congrArg (V c main_arg10) ?_
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- The block of the bias row is the row. -/
theorem iblk_3 (c : Dev nD) (t : Fin cfg2.N) (q : Fin 64) :
    (iblk2 V c 3 t : FVec Ideal S1x64 .f32) (ix2 (0 : Fin 1) q) = (V c main_v47 : FVec Ideal S1x64 .f32) (ix2 (0 : Fin 1) q) := by
  obtain ⟨-, -, -, -, -, -, e30, e31, -⟩ := idx_facts t
  unfold iblk2
  rw [View.read_apply]
  refine congrArg (V c main_v47) ?_
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-- The block of the second weight matrix is the matrix. -/
theorem iblk_4 (c : Dev nD) (t : Fin cfg2.N) (k q : Fin 64) :
    (iblk2 V c 4 t : FVec Ideal S64x64 .f32) (ix2 k q) = (V c main_arg12 : FVec Ideal S64x64 .f32) (ix2 k q) := by
  obtain ⟨-, -, -, -, -, -, -, -, e40, e41, -⟩ := idx_facts t
  unfold iblk2
  rw [View.read_apply]
  refine congrArg (V c main_arg12) ?_
  funext a; apply Fin.ext
  match a with
  | ⟨0, _⟩ => show win2_4.index t (0 : Fin 2) * 64 + 1 * k.val = k.val; omega
  | ⟨1, _⟩ => show win2_4.index t (1 : Fin 2) * 64 + 1 * q.val = q.val; omega

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨-, -, -, -, -, -, -, -, -, -, e50, e51⟩ := idx_facts t
  have ht : t.val < 20 := Nat.lt_of_lt_of_eq t.isLt N_2
  funext j
  obtain ⟨p, q, rfl⟩ : ∃ (p : Fin 5000) (q : Fin 64), j = ix2 p q := ⟨j 0, j 1, eq_ix2 j⟩
  have hrow : 5000 * t.val + p.val < 100000 := by have := p.isLt; omega
  have hemb : ((cfg2.win 5).blk t).view.emb (ix2 p q) = ix2 (⟨5000 * t.val + p.val, hrow⟩ : Fin 100000) q := by
    funext a; apply Fin.ext
    match a with
    | ⟨0, _⟩ => show win2_5.index t (0 : Fin 2) * 5000 + 1 * p.val = 5000 * t.val + p.val; omega
    | ⟨1, _⟩ => show win2_5.index t (1 : Fin 2) * 64 + 1 * q.val = q.val; omega
  show k2_pay1 (F := Ideal) (iblk2 V c 0 t) (iblk2 V c 1 t) (iblk2 V c 2 t) (iblk2 V c 4 t) (iblk2 V c 3 t) (ix2 p q)
    = G V c (((cfg2.win 5).blk t).view.emb (ix2 p q))
  rw [hemb]
  refine (pay2_apply (iblk2 V c 0 t) (iblk2 V c 1 t) (iblk2 V c 2 t) (iblk2 V c 4 t) (iblk2 V c 3 t) p q).trans ?_
  show _ = conv _ _ _ _ _ (⟨5000 * t.val + p.val, hrow⟩ : Fin 100000) q
  exact conv_rows _ _ _ _ _ _ _ _ _ _ p (⟨5000 * t.val + p.val, hrow⟩ : Fin 100000) q
    (fun k => iblk_0 V c t p k hrow) (fun k => iblk_1 V c t p k hrow) (fun k => iblk_2 V c t k q)
    (fun k => iblk_4 V c t k q) (iblk_3 V c t q)

/-- An index of the result array is in point `t`'s block iff each coordinate is in the block's range. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v48).slice (win2_5.rect t)).set ↔ _
  rw [View.set_slice_whole, Rect.mem_set_unit]
  exact Iff.rfl

/-- The twenty blocks tile the array: row `r` is in the block of point `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE ARRAY the launch leaves: the layer of the arrays it found. -/
theorem final (c : Dev nD) : (dat2 V c).arrAt 5 cfg2.N = G V c :=
  (dat2 V c).arrAt_eq_of_cover 5 (G V c) (fun t _ => flushed_eq V c t) cover

end Cert.KernelIdeal.Region2
-- ==== Proof.Net.lean ====
/-
  The three-layer network both programs compute, as one function of the argument arrays.

  `srcOf` / `dstOf` are the two rows of the edge list (source and target node of each edge). `agg h` is the
  edge-weighted neighbour sum of node features `h`: gather `h` at each edge's source (a negative index first wrapped by
  the node count), scale each gathered row by its edge's weight, and scatter-add the rows at each edge's target into
  an all-zero array. This chain is the same host operations in both programs and is never opened: every statement
  here applies it to equal inputs.
  `h1`, `h2` are the node features after the first and second rectified layers, `out` the third layer's result:
      h1  = relu-layer (agg x)  x,    h2 = relu-layer (agg h1) h1,    out = layer (agg h2) h2.
-/
import proofs.«136524_j78709570666587_1_alg».proof.Proof.Gen.ReferenceIdeal
import proofs.«136524_j78709570666587_1_alg».proof.Proof.LayerArr

noncomputable section

namespace Cert.Net

open Cert.ReferenceIdeal Cert.ReferenceIdeal.Gen
open Idealize.ShloMosaic Idealize.ShloMosaic.ValueIdx Cert.GraphConv

/-- The source node of each edge: row 0 of the edge list. -/
def srcOf (ei : (⟨S2x1280000, .i32⟩ : BufTy).Contents (Elt Ideal)) : (⟨S1280000, .i32⟩ : BufTy).Contents (Elt Ideal) :=
  shapeCast _ (extractStridedSlice S1x1280000 ![0, 0] ei slices_S2x1280000_S1x1280000_0_0) shapeCasts_S1x1280000_S1280000

/-- The target node of each edge: row 1 of the edge list. -/
def dstOf (ei : (⟨S2x1280000, .i32⟩ : BufTy).Contents (Elt Ideal)) : (⟨S1280000, .i32⟩ : BufTy).Contents (Elt Ideal) :=
  shapeCast _ (extractStridedSlice S1x1280000 ![1, 0] ei slices_S2x1280000_S1x1280000_1_0) shapeCasts_S1x1280000_S1280000

/-- The edge-weighted neighbour sums of node features `h`. -/
def agg (h : FVec Ideal S100000x64 .f32) (src dst : (⟨S1280000, .i32⟩ : BufTy).Contents (Elt Ideal))
    (w : FVec Ideal S1280000 .f32) : FVec Ideal S100000x64 .f32 :=
  Host.scatterAdd scatter_S100000x64_S1280000x1_S1280000x64_1_0_0_1
    (broadcastInDim S100000x64 ![] bcast_S_S100000x64 (constant (F := Ideal) S_ .f32 0x00000000#32))
    (broadcastInDim S1280000x1 ![0] bcast_S1280000_S1280000x1_0 dst)
    (mulf (broadcastInDim S1280000x64 ![0, 1] bcast_S1280000x1_S1280000x64_0_1 (broadcastInDim S1280000x1 ![0] bcast_S1280000_S1280000x1_0 w))
      (Host.gather gather_S100000x64_S1280000x1_S1280000x64_1_0_n_n_0_1_164 h
        (broadcastInDim S1280000x1 ![0] bcast_S1280000_S1280000x1_0
          (select (cmpi .slt src (broadcastInDim S1280000 ![] bcast_S_S1280000 (constantI S_ 32 0#32)))
            (addi src (broadcastInDim S1280000 ![] bcast_S_S1280000 (constantI S_ 32 100000#32))) src))))

variable (x : FVec Ideal S100000x64 .f32) (ei : (⟨S2x1280000, .i32⟩ : BufTy).Contents (Elt Ideal))
  (w : FVec Ideal S1280000 .f32)

/-- Node features after the first rectified layer. -/
def h1 (Wr1 : FVec Ideal S64x64 .f32) (b1 : FVec Ideal S64 .f32) (Wo1 : FVec Ideal S64x64 .f32) : FVec Ideal S100000x64 .f32 :=
  layerReluArr (agg x (srcOf ei) (dstOf ei) w) x Wr1 Wo1 (fun q => b1 (ix1 q))

/-- Node features after the second rectified layer. -/
def h2 (Wr1 : FVec Ideal S64x64 .f32) (b1 : FVec Ideal S64 .f32) (Wo1 : FVec Ideal S64x64 .f32)
    (Wr2 : FVec Ideal S64x64 .f32) (b2 : FVec Ideal S64 .f32) (Wo2 : FVec Ideal S64x64 .f32) : FVec Ideal S100000x64 .f32 :=
  layerReluArr (agg (h1 x ei w Wr1 b1 Wo1) (srcOf ei) (dstOf ei) w) (h1 x ei w Wr1 b1 Wo1) Wr2 Wo2 (fun q => b2 (ix1 q))

/-- The network's result: the third layer, with no rectifier. -/
def out (Wr1 : FVec Ideal S64x64 .f32) (b1 : FVec Ideal S64 .f32) (Wo1 : FVec Ideal S64x64 .f32)
    (Wr2 : FVec Ideal S64x64 .f32) (b2 : FVec Ideal S64 .f32) (Wo2 : FVec Ideal S64x64 .f32)
    (Wr3 : FVec Ideal S64x64 .f32) (b3 : FVec Ideal S64 .f32) (Wo3 : FVec Ideal S64x64 .f32) : FVec Ideal S100000x64 .f32 :=
  layerArr (agg (h2 x ei w Wr1 b1 Wo1 Wr2 b2 Wo2) (srcOf ei) (dstOf ei) w) (h2 x ei w Wr1 b1 Wo1 Wr2 b2 Wo2) Wr3 Wo3
    (fun q => b3 (ix1 q))

end Cert.Net
-- ==== Proof.Fold.lean ====
/-
  The kernel program's result buffer holds the network `Net.out` of the argument arrays.

  The program's buffers are followed through its six segments. A host stretch rewrites only the buffers its
  operations write; a launch rewrites only its result array, which ends as the layer of the arrays the launch found
  (the three region modules). So, stage by stage from the launch memory:
    after the first host stretch the neighbour-sum buffer holds `agg x`, the bias buffer the first bias as one row;
    after the first launch its result buffer holds `h1`;
    after the second host stretch the neighbour-sum buffer holds `agg h1` (the edge rows and weights still where the
      first stretch left them), after the second launch the result buffer holds `h2`;
    after the third host stretch `agg h2`, and after the third launch the program's result buffer holds `out`.
  Every other buffer read along the way (the edge rows, the edge weights, the weight matrices, the biases) is one no
  later segment writes, so it still holds what the launch memory or the first host stretch gave it.
-/
import proofs.«136524_j78709570666587_1_alg».proof.Proof.Gen.KernelIdeal.Frame
import proofs.«136524_j78709570666587_1_alg».proof.Proof.Region0
import proofs.«136524_j78709570666587_1_alg».proof.Proof.Region1
import proofs.«136524_j78709570666587_1_alg».proof.Proof.Region2
import proofs.«136524_j78709570666587_1_alg».proof.Proof.Net
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Idealize.ShloMosaic.ValueIdx Cert.GraphConv Cert.Net

/-- A buffer none of a host stretch's operations writes keeps its contents through the stretch. -/
local macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The rectified layer of equal arrays is equal. -/
theorem reluLayer_congr {A A' H H' : FVec Ideal S100000x64 .f32} {Wr Wr' Wo Wo' : FVec Ideal S64x64 .f32}
    {β β' : Fin 64 → Ideal .f32} (hA : A = A') (hH : H = H') (hWr : Wr = Wr') (hWo : Wo = Wo') (hβ : β = β') :
    layerReluArr A H Wr Wo β = layerReluArr A' H' Wr' Wo' β' := by subst hA hH hWr hWo hβ; rfl

/-- The layer of equal arrays is equal. -/
theorem layer_congr {A A' H H' : FVec Ideal S100000x64 .f32} {Wr Wr' Wo Wo' : FVec Ideal S64x64 .f32}
    {β β' : Fin 64 → Ideal .f32} (hA : A = A') (hH : H = H') (hWr : Wr = Wr') (hWo : Wo = Wo') (hβ : β = β') :
    layerArr A H Wr Wo β = layerArr A' H' Wr' Wo' β' := by subst hA hH hWr hWo hβ; rfl

/-- A bias vector cast to one row, read along that row, is the vector. -/
theorem bias_row (b : FVec Ideal S64 .f32) (X : FVec Ideal S1x64 .f32) (h : X = shapeCast S1x64 b shapeCasts_S64_S1x64) :
    (fun q : Fin 64 => X (ix2 (0 : Fin 1) q)) = fun q => b (ix1 q) := by
  subst h; funext q; exact shapeCast_a_1a_apply b shapeCasts_S64_S1x64 0 q

variable (m : (ℓ : Loc nD τ sig) → Buf (Elt Ideal) ℓ) (ρ : Dev nD → PrngReg) (c : Dev nD)

/-! ## After the first host stretch -/

theorem w1_arg0 : W1 m ρ c (Proc.devRef .tc main_arg0) = (m ((c : Thread nD τ).loc main_arg0)) := by
  show StableHlo.after hostOps0 (W0 m ρ c) (Proc.devRef .tc main_arg0) = W0 m ρ c (Proc.devRef .tc main_arg0)
  host_keep hostOps0
theorem w1_arg2 : W1 m ρ c (Proc.devRef .tc main_arg2) = (m ((c : Thread nD τ).loc main_arg2)) := by
  show StableHlo.after hostOps0 (W0 m ρ c) (Proc.devRef .tc main_arg2) = W0 m ρ c (Proc.devRef .tc main_arg2)
  host_keep hostOps0
theorem w1_arg4 : W1 m ρ c (Proc.devRef .tc main_arg4) = (m ((c : Thread nD τ).loc main_arg4)) := by
  show StableHlo.after hostOps0 (W0 m ρ c) (Proc.devRef .tc main_arg4) = W0 m ρ c (Proc.devRef .tc main_arg4)
  host_keep hostOps0
theorem w1_arg6 : W1 m ρ c (Proc.devRef .tc main_arg6) = (m ((c : Thread nD τ).loc main_arg6)) := by
  show StableHlo.after hostOps0 (W0 m ρ c) (Proc.devRef .tc main_arg6) = W0 m ρ c (Proc.devRef .tc main_arg6)
  host_keep hostOps0
theorem w1_arg7 : W1 m ρ c (Proc.devRef .tc main_arg7) = (m ((c : Thread nD τ).loc main_arg7)) := by
  show StableHlo.after hostOps0 (W0 m ρ c) (Proc.devRef .tc main_arg7) = W0 m ρ c (Proc.devRef .tc main_arg7)
  host_keep hostOps0
theorem w1_arg8 : W1 m ρ c (Proc.devRef .tc main_arg8) = (m ((c : Thread nD τ).loc main_arg8)) := by
  show StableHlo.after hostOps0 (W0 m ρ c) (Proc.devRef .tc main_arg8) = W0 m ρ c (Proc.devRef .tc main_arg8)
  host_keep hostOps0
theorem w1_arg9 : W1 m ρ c (Proc.devRef .tc main_arg9) = (m ((c : Thread nD τ).loc main_arg9)) := by
  show StableHlo.after hostOps0 (W0 m ρ c) (Proc.devRef .tc main_arg9) = W0 m ρ c (Proc.devRef .tc main_arg9)
  host_keep hostOps0
theorem w1_arg10 : W1 m ρ c (Proc.devRef .tc main_arg10) = (m ((c : Thread nD τ).loc main_arg10)) := by
  show StableHlo.after hostOps0 (W0 m ρ c) (Proc.devRef .tc main_arg10) = W0 m ρ c (Proc.devRef .tc main_arg10)
  host_keep hostOps0
theorem w1_arg11 : W1 m ρ c (Proc.devRef .tc main_arg11) = (m ((c : Thread nD τ).loc main_arg11)) := by
  show StableHlo.after hostOps0 (W0 m ρ c) (Proc.devRef .tc main_arg11) = W0 m ρ c (Proc.devRef .tc main_arg11)
  host_keep hostOps0
theorem w1_arg12 : W1 m ρ c (Proc.devRef .tc main_arg12) = (m ((c : Thread nD τ).loc main_arg12)) := by
  show StableHlo.after hostOps0 (W0 m ρ c) (Proc.devRef .tc main_arg12) = W0 m ρ c (Proc.devRef .tc main_arg12)
  host_keep hostOps0

/-- The edge sources, as the first stretch leaves them. -/
theorem w1_v1 : W1 m ρ c (Proc.devRef .tc main_v1) = (srcOf (m ((c : Thread nD τ).loc main_arg1))) := by
  show StableHlo.after hostOps0 (W0 m ρ c) (Proc.devRef .tc main_v1) = _
  dsimp only [hostOps0]
  after_results_simp
  rfl

/-- The edge targets, as the first stretch leaves them. -/
theorem w1_v3 : W1 m ρ c (Proc.devRef .tc main_v3) = (dstOf (m ((c : Thread nD τ).loc main_arg1))) := by
  show StableHlo.after hostOps0 (W0 m ρ c) (Proc.devRef .tc main_v3) = _
  dsimp only [hostOps0]
  after_results_simp
  rfl

set_option maxHeartbeats 4000000 in
/-- The neighbour sums of the input features. -/
theorem w1_v16 : W1 m ρ c (Proc.devRef .tc main_v16) = agg (m ((c : Thread nD τ).loc main_arg0)) (srcOf (m ((c : Thread nD τ).loc main_arg1))) (dstOf (m ((c : Thread nD τ).loc main_arg1))) (m ((c : Thread nD τ).loc main_arg2)) := by
  show StableHlo.after hostOps0 (W0 m ρ c) (Proc.devRef .tc main_v16) = _
  dsimp only [hostOps0]
  after_results_simp
  rfl

/-- The first bias as one row. -/
theorem w1_v17 : W1 m ρ c (Proc.devRef .tc main_v17) = shapeCast S1x64 (m ((c : Thread nD τ).loc main_arg5)) shapeCasts_S64_S1x64 := by
  show StableHlo.after hostOps0 (W0 m ρ c) (Proc.devRef .tc main_v17) = _
  dsimp only [hostOps0]
  after_results_simp
  rfl

/-! ## After the first launch -/

/-- The first launch's result: the features after the first rectified layer. -/
theorem w2_v18 : W2 m ρ c (Proc.devRef .tc main_v18) = (h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  refine (W2_arr m ρ c 5).trans ((Region0.final (V1 m ρ) c).trans ?_)
  exact reluLayer_congr (w1_v16 m ρ c) (w1_arg0 m ρ c) (w1_arg4 m ρ c) (w1_arg6 m ρ c)
    (bias_row (m ((c : Thread nD τ).loc main_arg5)) _ (w1_v17 m ρ c))

theorem w2k_v1 : W2 m ρ c (Proc.devRef .tc main_v1) = W1 m ρ c (Proc.devRef .tc main_v1) := W2_of_ne m ρ c main_v1 (by decide)
theorem w2k_v3 : W2 m ρ c (Proc.devRef .tc main_v3) = W1 m ρ c (Proc.devRef .tc main_v3) := W2_of_ne m ρ c main_v3 (by decide)
theorem w2k_arg2 : W2 m ρ c (Proc.devRef .tc main_arg2) = W1 m ρ c (Proc.devRef .tc main_arg2) := W2_of_ne m ρ c main_arg2 (by decide)
theorem w2k_arg7 : W2 m ρ c (Proc.devRef .tc main_arg7) = W1 m ρ c (Proc.devRef .tc main_arg7) := W2_of_ne m ρ c main_arg7 (by decide)
theorem w2k_arg8 : W2 m ρ c (Proc.devRef .tc main_arg8) = W1 m ρ c (Proc.devRef .tc main_arg8) := W2_of_ne m ρ c main_arg8 (by decide)
theorem w2k_arg9 : W2 m ρ c (Proc.devRef .tc main_arg9) = W1 m ρ c (Proc.devRef .tc main_arg9) := W2_of_ne m ρ c main_arg9 (by decide)
theorem w2k_arg10 : W2 m ρ c (Proc.devRef .tc main_arg10) = W1 m ρ c (Proc.devRef .tc main_arg10) := W2_of_ne m ρ c main_arg10 (by decide)
theorem w2k_arg11 : W2 m ρ c (Proc.devRef .tc main_arg11) = W1 m ρ c (Proc.devRef .tc main_arg11) := W2_of_ne m ρ c main_arg11 (by decide)
theorem w2k_arg12 : W2 m ρ c (Proc.devRef .tc main_arg12) = W1 m ρ c (Proc.devRef .tc main_arg12) := W2_of_ne m ρ c main_arg12 (by decide)

/-! ## After the second host stretch -/

theorem w3k_v18 : W3 m ρ c (Proc.devRef .tc main_v18) = W2 m ρ c (Proc.devRef .tc main_v18) := by
  show StableHlo.after hostOps1 (W2 m ρ c) (Proc.devRef .tc main_v18) = W2 m ρ c (Proc.devRef .tc main_v18)
  host_keep hostOps1
theorem w3k_v1 : W3 m ρ c (Proc.devRef .tc main_v1) = W2 m ρ c (Proc.devRef .tc main_v1) := by
  show StableHlo.after hostOps1 (W2 m ρ c) (Proc.devRef .tc main_v1) = W2 m ρ c (Proc.devRef .tc main_v1)
  host_keep hostOps1
theorem w3k_v3 : W3 m ρ c (Proc.devRef .tc main_v3) = W2 m ρ c (Proc.devRef .tc main_v3) := by
  show StableHlo.after hostOps1 (W2 m ρ c) (Proc.devRef .tc main_v3) = W2 m ρ c (Proc.devRef .tc main_v3)
  host_keep hostOps1
theorem w3k_arg2 : W3 m ρ c (Proc.devRef .tc main_arg2) = W2 m ρ c (Proc.devRef .tc main_arg2) := by
  show StableHlo.after hostOps1 (W2 m ρ c) (Proc.devRef .tc main_arg2) = W2 m ρ c (Proc.devRef .tc main_arg2)
  host_keep hostOps1
theorem w3k_arg7 : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  host_keep hostOps1
theorem w3k_arg9 : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  host_keep hostOps1
theorem w3k_arg10 : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  host_keep hostOps1
theorem w3k_arg11 : W3 m ρ c (Proc.devRef .tc main_arg11) = W2 m ρ c (Proc.devRef .tc main_arg11) := by
  show StableHlo.after hostOps1 (W2 m ρ c) (Proc.devRef .tc main_arg11) = W2 m ρ c (Proc.devRef .tc main_arg11)
  host_keep hostOps1
theorem w3k_arg12 : W3 m ρ c (Proc.devRef .tc main_arg12) = W2 m ρ c (Proc.devRef .tc main_arg12) := by
  show StableHlo.after hostOps1 (W2 m ρ c) (Proc.devRef .tc main_arg12) = W2 m ρ c (Proc.devRef .tc main_arg12)
  host_keep hostOps1

set_option maxHeartbeats 4000000 in
/-- The neighbour sums of what the first launch left. -/
theorem w3_v31 : W3 m ρ c (Proc.devRef .tc main_v31) = agg (h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (srcOf (m ((c : Thread nD τ).loc main_arg1))) (dstOf (m ((c : Thread nD τ).loc main_arg1))) (m ((c : Thread nD τ).loc main_arg2)) := by
  have e : W3 m ρ c (Proc.devRef .tc main_v31) = agg (W2 m ρ c (Proc.devRef .tc main_v18)) (W2 m ρ c (Proc.devRef .tc main_v1)) (W2 m ρ c (Proc.devRef .tc main_v3)) (W2 m ρ c (Proc.devRef .tc main_arg2)) := by
    show StableHlo.after hostOps1 (W2 m ρ c) (Proc.devRef .tc main_v31) = _
    dsimp only [hostOps1]
    after_results_simp
    rfl
  rw [e, w2_v18, w2k_v1, w2k_v3, w2k_arg2, w1_v1, w1_v3, w1_arg2]

/-- The second bias as one row. -/
theorem w3_v32 : W3 m ρ c (Proc.devRef .tc main_v32) = shapeCast S1x64 (m ((c : Thread nD τ).loc main_arg8)) shapeCasts_S64_S1x64 := by
  have e : W3 m ρ c (Proc.devRef .tc main_v32) = shapeCast S1x64 (W2 m ρ c (Proc.devRef .tc main_arg8)) shapeCasts_S64_S1x64 := by
    show StableHlo.after hostOps1 (W2 m ρ c) (Proc.devRef .tc main_v32) = _
    dsimp only [hostOps1]
    after_results_simp
    rfl
  rw [e, w2k_arg8, w1_arg8]

/-! ## After the second launch -/

/-- The second launch's result: the features after the second rectified layer. -/
theorem w4_v33 : W4 m ρ c (Proc.devRef .tc main_v33) = (h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W4_arr m ρ c 5).trans ((Region1.final (V3 m ρ) c).trans ?_)
  exact reluLayer_congr (w3_v31 m ρ c) ((w3k_v18 m ρ c).trans (w2_v18 m ρ c))
    ((w3k_arg7 m ρ c).trans ((w2k_arg7 m ρ c).trans (w1_arg7 m ρ c)))
    ((w3k_arg9 m ρ c).trans ((w2k_arg9 m ρ c).trans (w1_arg9 m ρ c)))
    (bias_row (m ((c : Thread nD τ).loc main_arg8)) _ (w3_v32 m ρ c))

theorem w4k_v1 : W4 m ρ c (Proc.devRef .tc main_v1) = W3 m ρ c (Proc.devRef .tc main_v1) := W4_of_ne m ρ c main_v1 (by decide)
theorem w4k_v3 : W4 m ρ c (Proc.devRef .tc main_v3) = W3 m ρ c (Proc.devRef .tc main_v3) := W4_of_ne m ρ c main_v3 (by decide)
theorem w4k_arg2 : W4 m ρ c (Proc.devRef .tc main_arg2) = W3 m ρ c (Proc.devRef .tc main_arg2) := W4_of_ne m ρ c main_arg2 (by decide)
theorem w4k_arg10 : W4 m ρ c (Proc.devRef .tc main_arg10) = W3 m ρ c (Proc.devRef .tc main_arg10) := W4_of_ne m ρ c main_arg10 (by decide)
theorem w4k_arg11 : W4 m ρ c (Proc.devRef .tc main_arg11) = W3 m ρ c (Proc.devRef .tc main_arg11) := W4_of_ne m ρ c main_arg11 (by decide)
theorem w4k_arg12 : W4 m ρ c (Proc.devRef .tc main_arg12) = W3 m ρ c (Proc.devRef .tc main_arg12) := W4_of_ne m ρ c main_arg12 (by decide)

/-! ## After the third host stretch -/

theorem w5k_v33 : W5 m ρ c (Proc.devRef .tc main_v33) = W4 m ρ c (Proc.devRef .tc main_v33) := by
  show StableHlo.after hostOps2 (W4 m ρ c) (Proc.devRef .tc main_v33) = W4 m ρ c (Proc.devRef .tc main_v33)
  host_keep hostOps2
theorem w5k_arg10 : W5 m ρ c (Proc.devRef .tc main_arg10) = W4 m ρ c (Proc.devRef .tc main_arg10) := by
  show StableHlo.after hostOps2 (W4 m ρ c) (Proc.devRef .tc main_arg10) = W4 m ρ c (Proc.devRef .tc main_arg10)
  host_keep hostOps2
theorem w5k_arg12 : W5 m ρ c (Proc.devRef .tc main_arg12) = W4 m ρ c (Proc.devRef .tc main_arg12) := by
  show StableHlo.after hostOps2 (W4 m ρ c) (Proc.devRef .tc main_arg12) = W4 m ρ c (Proc.devRef .tc main_arg12)
  host_keep hostOps2

set_option maxHeartbeats 4000000 in
/-- The neighbour sums of what the second launch left. -/
theorem w5_v46 : W5 m ρ c (Proc.devRef .tc main_v46) = agg (h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (srcOf (m ((c : Thread nD τ).loc main_arg1))) (dstOf (m ((c : Thread nD τ).loc main_arg1))) (m ((c : Thread nD τ).loc main_arg2)) := by
  have e : W5 m ρ c (Proc.devRef .tc main_v46) = agg (W4 m ρ c (Proc.devRef .tc main_v33)) (W4 m ρ c (Proc.devRef .tc main_v1)) (W4 m ρ c (Proc.devRef .tc main_v3)) (W4 m ρ c (Proc.devRef .tc main_arg2)) := by
    show StableHlo.after hostOps2 (W4 m ρ c) (Proc.devRef .tc main_v46) = _
    dsimp only [hostOps2]
    after_results_simp
    rfl
  rw [e, w4_v33, w4k_v1, w4k_v3, w4k_arg2, w3k_v1, w3k_v3, w3k_arg2, w2k_v1, w2k_v3, w2k_arg2, w1_v1, w1_v3, w1_arg2]

/-- The third bias as one row. -/
theorem w5_v47 : W5 m ρ c (Proc.devRef .tc main_v47) = shapeCast S1x64 (m ((c : Thread nD τ).loc main_arg11)) shapeCasts_S64_S1x64 := by
  have e : W5 m ρ c (Proc.devRef .tc main_v47) = shapeCast S1x64 (W4 m ρ c (Proc.devRef .tc main_arg11)) shapeCasts_S64_S1x64 := by
    show StableHlo.after hostOps2 (W4 m ρ c) (Proc.devRef .tc main_v47) = _
    dsimp only [hostOps2]
    after_results_simp
    rfl
  rw [e, w4k_arg11, w3k_arg11, w2k_arg11, w1_arg11]

/-! ## After the third launch -/

/-- THE RESULT BUFFER at the end of the fold holds the network of the argument arrays. -/
theorem w6_v48 : W6 m ρ c (Proc.devRef .tc main_v48) = (out (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W6_arr m ρ c 5).trans ((Region2.final (V5 m ρ) c).trans ?_)
  exact layer_congr (w5_v46 m ρ c) ((w5k_v33 m ρ c).trans (w4_v33 m ρ c))
    ((w5k_arg10 m ρ c).trans ((w4k_arg10 m ρ c).trans ((w3k_arg10 m ρ c).trans ((w2k_arg10 m ρ c).trans (w1_arg10 m ρ c)))))
    ((w5k_arg12 m ρ c).trans ((w4k_arg12 m ρ c).trans ((w3k_arg12 m ρ c).trans ((w2k_arg12 m ρ c).trans (w1_arg12 m ρ c)))))
    (bias_row (m ((c : Thread nD τ).loc main_arg11)) _ (w5_v47 m ρ c))

end Cert.KernelIdeal.Fold
-- ==== Proof.RefValue.lean ====
/-
  The reference's result is the network `Net.out` of its argument arrays.

  The reference's run ends with its result at the composed term of its host operations. In that term each layer is
  two host products, the bias laid along every row, and two additions — which is `layerArr` entry by entry — under
  the host's rectifier in the first two layers — `layerReluArr`; what feeds each layer is the shared neighbour-sum
  chain applied to the layer before. Rewriting the three layers leaves exactly `Net.out`.
-/
import proofs.«136524_j78709570666587_1_alg».proof.Proof.Gen.ReferenceIdeal.Run
import proofs.«136524_j78709570666587_1_alg».proof.Proof.Net

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Idealize.ShloMosaic.MatmulRead Cert.GraphConv

/-- The reference's contraction record is of the rows-by-columns form. -/
theorem dot_rbc : RowsByCols dot_S100000x64_S64x64_S100000x64_1_0_0_1_n_n := ⟨rfl, rfl, rfl, rfl, rfl, rfl⟩

/-- One host layer is `layerArr`. -/
theorem layer_eq (A H : FVec Ideal S100000x64 .f32) (Wr Wo : FVec Ideal S64x64 .f32) (b : FVec Ideal S64 .f32) :
    addf (addf (Host.dotGeneral dot_S100000x64_S64x64_S100000x64_1_0_0_1_n_n none A Wr)
        (broadcastInDim S100000x64 ![0, 1] bcast_S1x64_S100000x64_0_1 (broadcastInDim S1x64 ![1] bcast_S64_S1x64_1 b)))
      (Host.dotGeneral dot_S100000x64_S64x64_S100000x64_1_0_0_1_n_n none H Wo) = layerArr A H Wr Wo (fun q => b (ix1 q)) :=
  hostLayer_eq dot_rbc rfl rfl A H Wr Wo b bcast_S64_S1x64_1 bcast_S1x64_S100000x64_0_1

/-- One host layer under the host's rectifier is `layerReluArr`. -/
theorem reluLayer_eq (A H : FVec Ideal S100000x64 .f32) (Wr Wo : FVec Ideal S64x64 .f32) (β : Fin 64 → Ideal .f32) :
    maximumf (layerArr A H Wr Wo β) (broadcastInDim S100000x64 ![] bcast_S_S100000x64 (constant (F := Ideal) S_ .f32 0x00000000#32))
      = layerReluArr A H Wr Wo β :=
  hostRelu_layer_eq A H Wr Wo β bcast_S_S100000x64

set_option maxRecDepth 65536 in
/-- The reference's result term is the network of the argument arrays. -/
theorem res_eq (m : (ℓ : Loc nD τ sig) → Buf (Elt Ideal) ℓ) (c : Dev nD) :
    res_main_v62 (F := Ideal) m c = Cert.Net.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold res_main_v62
  rw [layer_eq, layer_eq, layer_eq, reluLayer_eq, reluLayer_eq]
  unfold Cert.Net.out Cert.Net.h2 Cert.Net.h1 Cert.Net.agg Cert.Net.srcOf Cert.Net.dstOf
  rfl

end Cert.ReferenceIdeal.RefValue
-- ==== Proof.lean ====
/-
  A three-layer graph convolution network: the kernel program against its reference, at the ideal instance.

  Each layer takes node features `h` (100000 × 64), forms the edge-weighted neighbour sums `agg h` on the host
  (gather at each edge's source, scale by the edge's weight, scatter-add at its target), and computes
      agg h · W_rel + b_rel + h · W_root,
  rectified in the first two layers. The reference computes the two products as host products over all 100000
  rows; the kernel program computes them in a launch of 20 grid points, each on a block of 5000 rows, narrowing
  its operands to bf16 first. At the ideal instance narrowing is the identity and a product accumulated from zero
  is the plain sum over the contracted axis, so a block's entry is the layer's entry formula over that block's
  rows; an entry depends only on its own row of the node arrays, so the twenty blocks written back are the twenty
  row blocks of the layer of the whole arrays. No law of arithmetic beyond `0 + x = x` is used, and none that needs
  finite inputs: the two sides add the same terms in the same order.

  The modules: `ConvSpec` / `LayerArr` (the layer's entry formula; the host's spelling of it), `KernelBlock` (a
  block's entry), `Region0/1/2` (each launch's result array as the layer of the arrays it finds), `KernelRun` (the
  program's run with its final buffers named), `Net` (the network as one function), `Fold` (the program's result
  buffer is the network of the arguments), `RefValue` (so is the reference's result).
-/
import proofs.«136524_j78709570666587_1_alg».proof.Defs
import proofs.«136524_j78709570666587_1_alg».proof.Proof.Gen.Kernel
import proofs.«136524_j78709570666587_1_alg».proof.Proof.Gen.Kernel.Skeleton
import proofs.«136524_j78709570666587_1_alg».proof.Proof.Gen.Kernel.Launch
import proofs.«136524_j78709570666587_1_alg».proof.Proof.Gen.Kernel.Points
import proofs.«136524_j78709570666587_1_alg».proof.Proof.Gen.Kernel.Frame
import proofs.«136524_j78709570666587_1_alg».proof.Proof.Gen.KernelIdeal
import proofs.«136524_j78709570666587_1_alg».proof.Proof.Gen.KernelIdeal.Skeleton
import proofs.«136524_j78709570666587_1_alg».proof.Proof.Gen.KernelIdeal.Launch
import proofs.«136524_j78709570666587_1_alg».proof.Proof.Gen.KernelIdeal.Points
import proofs.«136524_j78709570666587_1_alg».proof.Proof.Gen.KernelIdeal.Frame
import proofs.«136524_j78709570666587_1_alg».proof.Proof.Gen.ReferenceIdeal
import proofs.«136524_j78709570666587_1_alg».proof.Proof.Gen.ReferenceIdeal.Run
import proofs.«136524_j78709570666587_1_alg».proof.Proof.Gen.Pre_finite_inputs
import proofs.«136524_j78709570666587_1_alg».proof.Proof.KernelRun
import proofs.«136524_j78709570666587_1_alg».proof.Proof.Fold
import proofs.«136524_j78709570666587_1_alg».proof.Proof.RefValue
import Idealize.ShloMosaic.Adequacy
import Idealize.ShloMosaic.Init

noncomputable section

namespace Cert.Proof

open Idealize.ShloMosaic Idealize.SL.Sem

/-- The word-level program runs, faults nowhere and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at the network of the (agreeing) argument arrays. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.w6_v48 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RefValue.res_eq, e0, e1, e2, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
